-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x128 : Shape := ⟨2, ![50000, 128]⟩
abbrev S1600000x128 : Shape := ⟨2, ![1600000, 128]⟩
abbrev S2x1600000 : Shape := ⟨2, ![2, 1600000]⟩
abbrev S50000x1 : Shape := ⟨2, ![50000, 1]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S1600000x128 : S_.BroadcastsInDim S1600000x128 (![] : Fin 0 → Fin S1600000x128.rank)
  reducesTo_S1600000x128_S_d0_1 : S1600000x128.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S1x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S3x128 .f32) (main_arg7 : FVec F S128 .f32) (main_arg8 : FVec F S128x128 .f32) (main_arg9 : FVec F S128 .f32) (main_arg10 : FVec F S1x128 .f32) (main_arg11 : FVec F S128 .f32) (main_arg12 : FVec F S128x128 .f32) (main_arg13 : FVec F S128 .f32) (main_v13 : IVec S_ 1) (main_v16 : IVec S50000x3 1) : IVec S_ 1 :=
  let main_c_5 : IVec S_ 1 := constantI S_ 1 1#1
  let main_v17 : IVec S_ 1 := (fun x v => Host.reduce IntOp.andi x v reducesTo_S50000x3_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x3 .f32) (main_arg1 : FVec F S50000x128 .f32) (main_arg2 : FVec F S1600000x128 .f32) (main_arg3 : IVec S2x1600000 32) (main_arg4 : FVec F S50000x3 .f32) (main_arg5 : IVec S50000x1 1) (main_arg6 : FVec F S3x128 .f32) (main_arg7 : FVec F S128 .f32) (main_arg8 : FVec F S128x128 .f32) (main_arg9 : FVec F S128 .f32) (main_arg10 : FVec F S1x128 .f32) (main_arg11 : FVec F S128 .f32) (main_arg12 : FVec F S128x128 .f32) (main_arg13 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1600000x128 .f32 := Host.absf main_arg2
  let main_cst_2 : FVec F S_ .f32 := constant S_ .f32 0x7F800000#32
  let main_v10 : FVec F S1600000x128 .f32 := broadcastInDim S1600000x128 ![] bcast_S_S1600000x128 main_cst_2
  let main_v11 : IVec S1600000x128 1 := cmpf .olt main_v9 main_v10
  let main_c_3 : IVec S_ 1 := constantI S_ 1 1#1
  let main_v12 : IVec S_ 1 := (fun x v => Host.reduce IntOp.andi x v reducesTo_S1600000x128_S_d0_1 h_S_) main_v11 main_c_3
  let main_v13 : IVec S_ 1 := andi main_v8 main_v12
  let main_v14 : FVec F S50000x3 .f32 := Host.absf main_arg4
  let main_cst_4 : FVec F S_ .f32 := constant S_ .f32 0x7F800000#32
  let main_v15 : FVec F S50000x3 .f32 := broadcastInDim S50000x3 ![] bcast_S_S50000x3 main_cst_4
  let main_v16 : IVec S50000x3 1 := cmpf .olt main_v14 main_v15
  fn_part1 (F := F) main_arg6 main_arg7 main_arg8 main_arg9 main_arg10 main_arg11 main_arg12 main_arg13 main_v13 main_v16
-- ==== Kernel.lean ====
abbrev S50000x3 : Shape := ⟨2, ![50000, 3]⟩
abbrev S50000x128 : Shape := ⟨2, ![50000, 128]⟩
abbrev S1600000x128 : Shape := ⟨2, ![1600000, 128]⟩
abbrev S2x1600000 : Shape := ⟨2, ![2, 1600000]⟩
abbrev S50000x1 : Shape := ⟨2, ![50000, 1]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S5000x128 : Shape := ⟨2, ![5000, 128]⟩
abbrev S5000x3 : Shape := ⟨2, ![5000, 3]⟩
abbrev S5000x1 : Shape := ⟨2, ![5000, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S8000x128 : Shape := ⟨2, ![8000, 128]⟩
abbrev S8000x1 : Shape := ⟨2, ![8000, 1]⟩

abbrev nBuf : Space → Nat
  | .hbm => 50
  | .vmem => 20
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S1600000x128, .f32⟩
  | .hbm, ⟨3, _⟩ => ⟨S2x1600000, .i32⟩
  | .hbm, ⟨4, _⟩ => ⟨S50000x3, .f32⟩
  | .hbm, ⟨5, _⟩ => ⟨S50000x1, .i1⟩
  | .hbm, ⟨6, _⟩ => ⟨S3x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x3, .i1⟩
  | .hbm, ⟨15, _⟩ => ⟨S50000x3, .f32⟩
  | .hbm, ⟨16, _⟩ => ⟨S1x128, .f32⟩
  | .hbm, ⟨17, _⟩ => ⟨S1x128, .f32⟩
  | .hbm, ⟨18, _⟩ => ⟨S50000x128, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x3, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x3, .f32⟩
  | .hbm, ⟨41, _⟩ => ⟨S1600000x3, .f32⟩
  | .hbm, ⟨42, _⟩ => ⟨S1600000x3, .f32⟩
  | .hbm, ⟨43, _⟩ => ⟨S_, .f32⟩
  | .hbm, ⟨44, _⟩ => ⟨S1600000, .f32⟩
  | .hbm, ⟨45, _⟩ => ⟨S1600000x1, .f32⟩
  | .hbm, ⟨46, _⟩ => ⟨S1600000x1, .f32⟩
  | .hbm, ⟨47, _⟩ => ⟨S1x128, .f32⟩
  | .hbm, ⟨48, _⟩ => ⟨S1x128, .f32⟩
  | .hbm, ⟨49, _⟩ => ⟨S1600000x128, .f32⟩
  | .local _ .vmem, ⟨0, _⟩ => ⟨S5000x128, .f32⟩
  | .local _ .vmem, ⟨1, _⟩ => ⟨S5000x128, .f32⟩
  | .local _ .vmem, ⟨2, _⟩ => ⟨S5000x3, .f32⟩
  | .local _ .vmem, ⟨3, _⟩ => ⟨S5000x3, .f32⟩
  | .local _ .vmem, ⟨4, _⟩ => ⟨S3x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S8000x128, .f32⟩
  | .local _ .vmem, ⟨11, _⟩ => ⟨S8000x128, .f32⟩
  | .local _ .vmem, ⟨12, _⟩ => ⟨S8000x1, .f32⟩
  | .local _ .vmem, ⟨13, _⟩ => ⟨S8000x1, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S8000x128, .f32⟩
  | .local _ .vmem, ⟨19, _⟩ => ⟨S8000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S50000x1_S50000x3_0_1 : S50000x1.BroadcastsInDim S50000x3 (![0, 1] : Fin 2 → Fin S50000x3.rank)
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S3x128_S3x128_0_0 : ∀ a, (![0, 0] : Fin 2 → Nat) a + S3x128.size a ≤ S3x128.size a
  h_S3x128 : 0 < S3x128.numel
  slices_S5000x3_o0_0_S5000x1 : S5000x3.Slices ![0, 0] S5000x1
  slices_S3x128_o0_0_S1x128 : S3x128.Slices ![0, 0] S1x128
  broadcasts_S5000x1_S5000x128 : S5000x1.Broadcasts S5000x128
  broadcasts_S1x128_S5000x128 : S1x128.Broadcasts S5000x128
  slices_S5000x3_o0_1_S5000x1 : S5000x3.Slices ![0, 1] S5000x1
  slices_S3x128_o1_0_S1x128 : S3x128.Slices ![1, 0] S1x128
  slices_S5000x3_o0_2_S5000x1 : S5000x3.Slices ![0, 2] S5000x1
  slices_S3x128_o2_0_S1x128 : S3x128.Slices ![2, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  dot_S5000x128_S128x128_S5000x128_1_0_0_1_n_n_wf : DotDims.WF S5000x128 S128x128 S5000x128 [1] [0] [0] [1] [] []
  gather_S50000x3_S1600000x1_S1600000x3_1_0_n_n_0_1_13_wf : GatherDims.WF S50000x3 S1600000x1 S1600000x3 [1] [0] [] [0] [] 1 ![1, 3]
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S50000x3.size a
  hwx0_1 : ∀ i : grid0.Coords, EltTy.bits .f32 = 32 ∨ (Rect.block (s := S50000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S1600000x128.size a
  hwx1_6 : ∀ i : grid1.Coords, EltTy.bits .f32 = 32 ∨ (Rect.block (s := S1600000x128) S8000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000x128 : Shape := ⟨2, ![50000, 128]⟩
abbrev S1600000x128 : Shape := ⟨2, ![1600000, 128]⟩
abbrev S2x1600000 : Shape := ⟨2, ![2, 1600000]⟩
abbrev S50000x1 : Shape := ⟨2, ![50000, 1]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x3 : Shape := ⟨2, ![1600000, 3]⟩

abbrev nBuf : Space → Nat
  | .hbm => 68
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S1600000x128, .f32⟩
  | .hbm, ⟨3, _⟩ => ⟨S2x1600000, .i32⟩
  | .hbm, ⟨4, _⟩ => ⟨S50000x3, .f32⟩
  | .hbm, ⟨5, _⟩ => ⟨S50000x1, .i1⟩
  | .hbm, ⟨6, _⟩ => ⟨S3x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x3, .i1⟩
  | .hbm, ⟨15, _⟩ => ⟨S50000x3, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x1600000, .i32⟩
  | .hbm, ⟨29, _⟩ => ⟨S1600000, .i32⟩
  | .hbm, ⟨30, _⟩ => ⟨S1x1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x3, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x3, .f32⟩
  | .hbm, ⟨50, _⟩ => ⟨S1600000x3, .f32⟩
  | .hbm, ⟨51, _⟩ => ⟨S1600000x3, .f32⟩
  | .hbm, ⟨52, _⟩ => ⟨S_, .f32⟩
  | .hbm, ⟨53, _⟩ => ⟨S1600000, .f32⟩
  | .hbm, ⟨54, _⟩ => ⟨S1600000x1, .f32⟩
  | .hbm, ⟨55, _⟩ => ⟨S1600000x1, .f32⟩
  | .hbm, ⟨56, _⟩ => ⟨S1600000x128, .f32⟩
  | .hbm, ⟨57, _⟩ => ⟨S1x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S1x128, .f32⟩
  | .hbm, ⟨65, _⟩ => ⟨S1600000x128, .f32⟩
  | .hbm, ⟨66, _⟩ => ⟨S1600000x128, .f32⟩
  | .hbm, ⟨67, _⟩ => ⟨S1600000x128, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_cst : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_call2_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call3_cst : Ref sig .tc := ⟨.hbm, 60, rfl⟩
abbrev main_call3_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]

class Facts₀ : Prop where
  bcast_S50000x1_S50000x3_0_1 : S50000x1.BroadcastsInDim S50000x3 (![0, 1] : Fin 2 → Fin S50000x3.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  dot_S50000x3_S3x128_S50000x128_1_0_0_1_n_n_wf : DotDims.WF S50000x3 S3x128 S50000x128 [1] [0] [0] [1] [] []
  dot_S50000x128_S128x128_S50000x128_1_0_0_1_n_n_wf : DotDims.WF S50000x128 S128x128 S50000x128 [1] [0] [0] [1] [] []
  gather_S50000x3_S1600000x1_S1600000x3_1_0_n_n_0_1_13_wf : GatherDims.WF S50000x3 S1600000x1 S1600000x3 [1] [0] [] [0] [] 1 ![1, 3]
  dot_S1600000x1_S1x128_S1600000x128_1_0_0_1_n_n_wf : DotDims.WF S1600000x1 S1x128 S1600000x128 [1] [0] [0] [1] [] []
  dot_S1600000x128_S128x128_S1600000x128_1_0_0_1_n_n_wf : DotDims.WF S1600000x128 S128x128 S1600000x128 [1] [0] [0] [1] [] []

variable [Facts₀]

def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf

class Facts : Prop extends Facts₀ where

variable [Facts]
-- ==== Proof.KernelRun.lean ====
/-
  The idealized kernel program's run, with its two result arrays named.

  The program is five segments: two stretches of host operations, the node region, a third stretch, the edge
  region.  The contents of the core's buffers at each boundary are a fold from the launch memory; after the last
  segment every unscoped buffer holds the last boundary's contents.  Read at the two result buffers and at the
  fourteen argument buffers, that is: every weakly fair execution terminates, nothing faults, the results hold the
  last boundary's contents at their buffers, and the arguments are as launched.
-/
import proofs.«138814_j11003706212368_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the node result and the edge result
    hold the last boundary's contents at their buffers, and every argument array is as launched. -/
theorem run_results : θ_run defs (onTc (τ := τ) (main (F := F))) ⟨m, fun _ => 0, ρ⟩ (fun r => ∀ c : Dev nD,
      r.2.mem ((c.tc : Thread nD τ).loc main_v3) = W5 m ρ c (Proc.devRef .tc main_v3)
      ∧ r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v3 (by decide)),
       h c _ (mem_uc main_v29 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.KernelIdeal.RunValue

end
-- ==== Proof.MlpSpec.lean ====
/-
  Two-layer perceptrons with a residual, row by row, over the extended reals.

  Both outputs of the program have one shape of mathematics: for a row `p` and an output column `q`,

      out (p, q) = res (p, q) + ( (∑ k, max (pre p k + b₁ k) 0 · W₂ (k, q)) + b₂ q )

  where `pre p k` is the first layer's linear part at row `p`, hidden unit `k`.  On the node path the first layer
  has three inputs, `pre p k = (P (p,0)·W (0,k) + P (p,1)·W (1,k)) + P (p,2)·W (2,k)`; on the edge path it has one,
  `pre p k = L (p,0)·W (0,k)`.  A sum over three terms, or over one, is that expression whatever the order of
  summation, because addition of extended reals is associative; nothing here needs the summands finite.

  Below the specification are the few layout operations the two bodies use, read at an index given by its
  coordinates: a column broadcast along the rows, a row broadcast down the columns, one column or one row cut out
  of a small matrix, and a product of an [n,128] matrix with a [128,128] one accumulated from zero.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Mlp

open Idealize.ShloMosaic Idealize.ShloMosaic.ValueIdx

/-- The shape of an `a` by `b` matrix. -/
abbrev Mat (a b : Nat) : Shape := ⟨2, ![a, b]⟩

/-! ## The specification -/

/-- The output at row `p`, column `q`: the residual plus the second layer applied to the rectified first layer. -/
def outAt {n : Nat} (res : (Mat n 128).Idx → EReal) (pre : Fin n → Fin 128 → EReal) (b1 : Fin 128 → EReal)
    (W2 : (Mat 128 128).Idx → EReal) (b2 : Fin 128 → EReal) (p : Fin n) (q : Fin 128) : EReal :=
  res (ix2 p q) + ((∑ k : Fin 128, max (pre p k + b1 k) 0 * W2 (ix2 k q)) + b2 q)

/-- The whole output array. -/
def out {n : Nat} (res : (Mat n 128).Idx → EReal) (pre : Fin n → Fin 128 → EReal) (b1 : Fin 128 → EReal)
    (W2 : (Mat 128 128).Idx → EReal) (b2 : Fin 128 → EReal) : (Mat n 128).Idx → EReal :=
  fun i => outAt res pre b1 W2 b2 (i 0) (i 1)

theorem out_ix2 {n : Nat} (res : (Mat n 128).Idx → EReal) (pre : Fin n → Fin 128 → EReal) (b1 : Fin 128 → EReal)
    (W2 : (Mat 128 128).Idx → EReal) (b2 : Fin 128 → EReal) (p : Fin n) (q : Fin 128) :
    out res pre b1 W2 b2 (ix2 p q) = outAt res pre b1 W2 b2 p q := rfl

/-- The first layer's linear part with three inputs. -/
def pre3 {n : Nat} (P : (Mat n 3).Idx → EReal) (W : (Mat 3 128).Idx → EReal) (p : Fin n) (k : Fin 128) : EReal :=
  (P (ix2 p 0) * W (ix2 0 k) + P (ix2 p 1) * W (ix2 1 k)) + P (ix2 p 2) * W (ix2 2 k)

/-- The first layer's linear part with one input. -/
def pre1 {n : Nat} (L : (Mat n 1).Idx → EReal) (W : (Mat 1 128).Idx → EReal) (p : Fin n) (k : Fin 128) : EReal :=
  L (ix2 p 0) * W (ix2 0 k)

/-- A contraction over three inputs is the three-term expression. -/
theorem sum3_eq_pre3 {n : Nat} (P : (Mat n 3).Idx → EReal) (W : (Mat 3 128).Idx → EReal) (p : Fin n) (k : Fin 128) :
    ∑ j : Fin 3, P (ix2 p j) * W (ix2 j k) = pre3 P W p k :=
  Fin.sum_univ_three _

/-- A contraction over one input is the one product. -/
theorem sum1_eq_pre1 {n : Nat} (L : (Mat n 1).Idx → EReal) (W : (Mat 1 128).Idx → EReal) (p : Fin n) (k : Fin 128) :
    ∑ j : Fin 1, L (ix2 p j) * W (ix2 j k) = pre1 L W p k :=
  Fin.sum_univ_one _

/-! ## Layout operations read at an index -/

section Layout
variable {α : Type}

/-- A column [n,1] broadcast along the rows reads the column at the row coordinate. -/
theorem bcast_col {n : Nat} (v : (Mat n 1).Idx → α) (h : (Mat n 1).Broadcasts (Mat n 128)) (p : Fin n) (q : Fin 128) :
    broadcastTo (Mat n 128) v h (ix2 p q) = v (ix2 p 0) :=
  broadcastTo_apply v h (ix2 p q) (ix2 p 0) (fun a => match a with
    | ⟨0, _⟩ => by
        show p.val = if n = 1 then 0 else p.val
        by_cases h1 : n = 1
        · rw [if_pos h1]; have := p.isLt; omega
        · rw [if_neg h1]
    | ⟨1, _⟩ => by show (0 : Nat) = if (1 : Nat) = 1 then 0 else q.val; rw [if_pos rfl])

/-- A row [1,128] broadcast down the columns reads the row at the column coordinate. -/
theorem bcast_row {n : Nat} (v : (Mat 1 128).Idx → α) (h : (Mat 1 128).Broadcasts (Mat n 128)) (p : Fin n) (q : Fin 128) :
    broadcastTo (Mat n 128) v h (ix2 p q) = v (ix2 0 q) :=
  broadcastTo_apply v h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- Column `o` of an [n,3] matrix, cut out as an [n,1] slice. -/
theorem slice_col {n : Nat} (v : (Mat n 3).Idx → α) (o : Nat) (ho : o < 3) (h : (Mat n 3).Slices ![0, o] (Mat n 1)) (p : Fin n) :
    extractStridedSlice (Mat n 1) ![0, o] v h (ix2 p 0) = v (ix2 p ⟨o, ho⟩) :=
  extractStridedSlice_apply _ v h (ix2 p 0) (ix2 p ⟨o, ho⟩) (fun a => match a with
    | ⟨0, _⟩ => by show p.val = 0 + p.val; omega
    | ⟨1, _⟩ => by show o = o + 0; omega)

/-- Row `o` of a [3,128] matrix, cut out as a [1,128] slice. -/
theorem slice_row (v : (Mat 3 128).Idx → α) (o : Nat) (ho : o < 3) (h : (Mat 3 128).Slices ![o, 0] (Mat 1 128)) (k : Fin 128) :
    extractStridedSlice (Mat 1 128) ![o, 0] v h (ix2 0 k) = v (ix2 ⟨o, ho⟩ k) :=
  extractStridedSlice_apply _ v h (ix2 0 k) (ix2 ⟨o, ho⟩ k) (fun a => match a with
    | ⟨0, _⟩ => by show o = o + 0; omega
    | ⟨1, _⟩ => by show k.val = 0 + k.val; omega)

end Layout

/-! ## A matrix product accumulated from zero, read at an entry -/

/-- For dimension numbers that contract the left operand's columns with the right operand's rows (the four
    coordinate facts), entry (p, q) of the product of an [n,128] matrix with a [128,128] matrix, accumulated
    into zero, is the sum over the 128 shared coordinates of the products of the entries. -/
theorem matmul_rows {n : Nat} {φ₁ φ₂ : FTy} (d : DotDims (Mat n 128) (Mat 128 128) (Mat n 128))
    (hr : d.contr.rank = 1) (hs : d.contr.size ⟨0, by omega⟩ = 128)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (A : FVec Ideal (Mat n 128) φ₁) (B : FVec Ideal (Mat 128 128) φ₂) (p : Fin n) (q : Fin 128) :
    matmul d none A B (constant (Mat n 128) .f32 0x00000000#32) (ix2 p q) = ∑ k : Fin 128, A (ix2 p k) * B (ix2 k q) := by
  show FloatOps.matmul d none A B (constant (Mat n 128) .f32 0x00000000#32) (ix2 p q) = _
  rw [Ideal.matmul_constant_zero_apply, ← Equiv.sum_comp (contrEquiv1 d 128 hr hs).symm]
  refine Finset.sum_congr rfl fun k _ => ?_
  have hk := contrEquiv1_symm_val d 128 hr hs k
  have el : d.lhsIdx (ix2 p q) ((contrEquiv1 d 128 hr hs).symm k) = ix2 p k := funext fun a => Fin.ext (by
    match a with
    | ⟨0, _⟩ => exact hl0 _ _
    | ⟨1, _⟩ => exact (hl1 _ _).trans hk)
  have er : d.rhsIdx (ix2 p q) ((contrEquiv1 d 128 hr hs).symm k) = ix2 k q := funext fun a => Fin.ext (by
    match a with
    | ⟨0, _⟩ => exact (hr0 _ _).trans hk
    | ⟨1, _⟩ => exact hr1 _ _)
  rw [el, er]

end Cert.Mlp

end
-- ==== Proof.NodeBlock.lean ====
/-
  The node kernel's body, read at one entry of its output block.

  The body loads a [5000,3] block of positions P, the [3,128] first-layer matrix W₁, the two bias rows, the
  [128,128] second-layer matrix W₂ and a [5000,128] block X of the residual.  It forms the first layer as three
  broadcast products added left to right, adds the bias row, rectifies, multiplies by W₂ accumulating from zero,
  adds the second bias row and the residual.  At row p and column q of the block that is

      X (p,q) + ((∑ k, max ((P(p,0)·W₁(0,k) + P(p,1)·W₁(1,k)) + P(p,2)·W₁(2,k) + b₁ k) 0 · W₂ (k,q)) + b₂ q).

  Changes of float format are the identity on extended reals, and the zero word reads 0.
-/
import proofs.«138814_j11003706212368_2_alg».proof.Proof.Gen.KernelIdeal.Skeleton
import proofs.«138814_j11003706212368_2_alg».proof.Proof.MlpSpec

noncomputable section

open scoped BigOperators

namespace Cert.KernelIdeal.NodeBlock

open Cert.KernelIdeal Cert.KernelIdeal.Gen Idealize.ShloMosaic Idealize.ShloMosaic.ValueIdx Cert.Mlp

/-! ## The matrix product's dimension numbers: left columns against right rows -/

theorem dot_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dot_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dot_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The rectified first layer, as the body computes it -/

/-- Three broadcast products added left to right, plus the bias row, rectified. -/
def hidden (X1 : FVec Ideal S5000x3 .f32) (X2 : FVec Ideal S3x128 .f32) (B1 : FVec Ideal S1x128 .f32) : FVec Ideal S5000x128 .f32 :=
  maximumf
    (addf
      (addf
        (addf
          (mulf (broadcastTo S5000x128 (extractStridedSlice S5000x1 ![0, 0] (shapeCast S5000x3 X1 shapeCasts_S5000x3_S5000x3) slices_S5000x3_o0_0_S5000x1) broadcasts_S5000x1_S5000x128)
                (broadcastTo S5000x128 (extractStridedSlice S1x128 ![0, 0] X2 slices_S3x128_o0_0_S1x128) broadcasts_S1x128_S5000x128))
          (mulf (broadcastTo S5000x128 (extractStridedSlice S5000x1 ![0, 1] (shapeCast S5000x3 X1 shapeCasts_S5000x3_S5000x3) slices_S5000x3_o0_1_S5000x1) broadcasts_S5000x1_S5000x128)
                (broadcastTo S5000x128 (extractStridedSlice S1x128 ![1, 0] X2 slices_S3x128_o1_0_S1x128) broadcasts_S1x128_S5000x128)))
        (mulf (broadcastTo S5000x128 (extractStridedSlice S5000x1 ![0, 2] (shapeCast S5000x3 X1 shapeCasts_S5000x3_S5000x3) slices_S5000x3_o0_2_S5000x1) broadcasts_S5000x1_S5000x128)
              (broadcastTo S5000x128 (extractStridedSlice S1x128 ![2, 0] X2 slices_S3x128_o2_0_S1x128) broadcasts_S1x128_S5000x128)))
      (broadcastTo S5000x128 (shapeCast S1x128 B1 shapeCasts_S1x128_S1x128) broadcasts_S1x128_S5000x128))
    (broadcast S5000x128 (Scalar.ofBits (F := Ideal) .f32 0x00000000#32))

/-- The body's stored value: the residual plus the product of the rectified first layer with W₂, plus the bias row. -/
theorem pay_eq (X1 : FVec Ideal S5000x3 .f32) (X2 : FVec Ideal S3x128 .f32) (B1 : FVec Ideal S1x128 .f32)
    (W2 : FVec Ideal S128x128 .f32) (B2 : FVec Ideal S1x128 .f32) (X0 : FVec Ideal S5000x128 .f32) :
    k0_pay1 (F := Ideal) X1 X2 B1 W2 B2 X0
      = addf X0 (addf (matmul dot_S5000x128_S128x128_S5000x128_1_0_0_1_n_n none (truncf .bf16 (hidden X1 X2 B1) bitsLt_bf16_f32) (truncf .bf16 W2 bitsLt_bf16_f32) (constant S5000x128 .f32 0x00000000#32))
          (broadcastTo S5000x128 (shapeCast S1x128 B2 shapeCasts_S1x128_S1x128) broadcasts_S1x128_S5000x128)) := rfl

/-- The rectified first layer at row p, hidden unit k. -/
theorem hidden_apply (X1 : FVec Ideal S5000x3 .f32) (X2 : FVec Ideal S3x128 .f32) (B1 : FVec Ideal S1x128 .f32) (p : Fin 5000) (k : Fin 128) :
    hidden X1 X2 B1 (ix2 p k) = max (pre3 X1 X2 p k + B1 (ix2 0 k)) 0 := by
  unfold hidden pre3
  rw [shapeCast_self, shapeCast_self]
  show max ((((broadcastTo S5000x128 _ _ (ix2 p k)) * (broadcastTo S5000x128 _ _ (ix2 p k)) + (broadcastTo S5000x128 _ _ (ix2 p k)) * (broadcastTo S5000x128 _ _ (ix2 p k))) + (broadcastTo S5000x128 _ _ (ix2 p k)) * (broadcastTo S5000x128 _ _ (ix2 p k))) + (broadcastTo S5000x128 B1 _ (ix2 p k))) (Ideal.ofBits .f32 0x00000000#32) = _
  rw [Ideal.ofBits_zero_f32]
  rw [bcast_col, bcast_row, bcast_col, bcast_row, bcast_col, bcast_row, bcast_row]
  rw [slice_col X1 0 (by decide), slice_col X1 1 (by decide), slice_col X1 2 (by decide)]
  rw [slice_row X2 0 (by decide), slice_row X2 1 (by decide), slice_row X2 2 (by decide)]
  rfl

/-- The body's stored value at row p, column q of the block. -/
theorem pay_apply (X1 : FVec Ideal S5000x3 .f32) (X2 : FVec Ideal S3x128 .f32) (B1 : FVec Ideal S1x128 .f32)
    (W2 : FVec Ideal S128x128 .f32) (B2 : FVec Ideal S1x128 .f32) (X0 : FVec Ideal S5000x128 .f32) (p : Fin 5000) (q : Fin 128) :
    k0_pay1 (F := Ideal) X1 X2 B1 W2 B2 X0 (ix2 p q)
      = outAt X0 (pre3 X1 X2) (fun k => B1 (ix2 0 k)) W2 (fun k => B2 (ix2 0 k)) p q := by
  rw [pay_eq]
  unfold outAt
  show X0 (ix2 p q) + (matmul dot_S5000x128_S128x128_S5000x128_1_0_0_1_n_n none (truncf .bf16 (hidden X1 X2 B1) bitsLt_bf16_f32) (truncf .bf16 W2 bitsLt_bf16_f32) (constant S5000x128 .f32 0x00000000#32) (ix2 p q)
      + broadcastTo S5000x128 (shapeCast S1x128 B2 shapeCasts_S1x128_S1x128) broadcasts_S1x128_S5000x128 (ix2 p q)) = _
  rw [matmul_rows dot_S5000x128_S128x128_S5000x128_1_0_0_1_n_n rfl rfl dot_l0 dot_l1 dot_r0 dot_r1, bcast_row, shapeCast_self]
  refine congrArg (fun s => X0 (ix2 p q) + (s + B2 (ix2 0 q))) (Finset.sum_congr rfl fun k _ => ?_)
  show hidden X1 X2 B1 (ix2 p k) * W2 (ix2 k q) = _
  rw [hidden_apply]

end Cert.KernelIdeal.NodeBlock

end
-- ==== Proof.NodeArray.lean ====
/-
  The node region: from what each grid point writes back to the whole result array.

  The region runs over ten grid points.  Point t reads rows 5000·t … 5000·t+4999 of the residual array and of the
  positions, reads the two weight matrices and the two bias rows whole, and writes back rows 5000·t … 5000·t+4999
  of the result.  Row p of the block at point t is row 5000·t + p of the array, so what point t writes back is
  block t of ONE function of the arrays the region is entered with — the two-layer perceptron with its residual,
  row by row — and since every row of the result lies in the block of the point (row / 5000), the result array
  ends holding that function everywhere.
-/
import proofs.«138814_j11003706212368_2_alg».proof.Proof.Gen.KernelIdeal.Frame
import proofs.«138814_j11003706212368_2_alg».proof.Proof.NodeBlock
import Idealize.ShloMosaic.Lib.Pipeline.Value

set_option maxRecDepth 16384

noncomputable section

open scoped BigOperators

namespace Cert.KernelIdeal.NodeArray

open Cert.KernelIdeal Cert.KernelIdeal.Gen
open Idealize.ShloMosaic Idealize.ShloMosaic.TcCoe Idealize.ShloMosaic.ValueIdx Idealize.SL.Sem Cert.Mlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result as one function of the arrays the region is entered with. -/
def nodeG (X : S50000x128.Idx → EReal) (P : S50000x3.Idx → EReal) (W1 : S3x128.Idx → EReal) (B1 : S1x128.Idx → EReal)
    (W2 : S128x128.Idx → EReal) (B2 : S1x128.Idx → EReal) : S50000x128.Idx → EReal :=
  out X (pre3 P W1) (fun k => B1 (ix2 0 k)) W2 (fun k => B2 (ix2 0 k))

/-- The block index maps over the grid: the row-blocked windows move with the point, the others stay at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row 5000·t + p of a 50000-row array. -/
def rowOf (t : Fin cfg0.N) (p : Fin 5000) : Fin 50000 :=
  ⟨t.val * 5000 + p.val, by have ht : t.val < grid0.N := t.isLt; rw [N_0] at ht; have := p.isLt; omega⟩

/-! ## Where a block's entries sit in their arrays -/

theorem emb0 (t : Fin cfg0.N) (p : Fin 5000) (q : Fin 128) : ((cfg0.win 0).blk t).view.emb (ix2 p q) = ix2 (rowOf t p) q := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * q.val = q.val; omega

theorem emb1 (t : Fin cfg0.N) (p : Fin 5000) (j : Fin 3) : ((cfg0.win 1).blk t).view.emb (ix2 p j) = ix2 (rowOf t p) j := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 3 + 1 * j.val = j.val; omega

theorem emb6 (t : Fin cfg0.N) (p : Fin 5000) (q : Fin 128) : ((cfg0.win 6).blk t).view.emb (ix2 p q) = ix2 (rowOf t p) q := by
  obtain ⟨-, -, -, -, -, -, -, -, -, -, -, -, e0, e1⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

theorem emb2 (t : Fin cfg0.N) (y : S3x128.Idx) : ((cfg0.win 2).blk t).view.emb y = y := by
  obtain ⟨-, -, -, -, e0, e1, -⟩ := idx_facts t
  funext a; apply Fin.ext
  match a with
  | ⟨0, _⟩ => show win0_2.index t (0 : Fin 2) * 3 + 1 * (y 0).val = (y 0).val; omega
  | ⟨1, _⟩ => show win0_2.index t (1 : Fin 2) * 128 + 1 * (y 1).val = (y 1).val; omega

theorem emb3 (t : Fin cfg0.N) (y : S1x128.Idx) : ((cfg0.win 3).blk t).view.emb y = y := by
  obtain ⟨-, -, -, -, -, -, e0, e1, -⟩ := idx_facts t
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem emb4 (t : Fin cfg0.N) (y : S128x128.Idx) : ((cfg0.win 4).blk t).view.emb y = y := by
  obtain ⟨-, -, -, -, -, -, -, -, e0, e1, -⟩ := idx_facts t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem emb5 (t : Fin cfg0.N) (y : S1x128.Idx) : ((cfg0.win 5).blk t).view.emb y = y := by
  obtain ⟨-, -, -, -, -, -, -, -, -, -, e0, e1, -⟩ := idx_facts t
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## The blocks the body reads, as the arrays at the block's place -/

theorem blk0 (c : Dev nD) (t : Fin cfg0.N) (p : Fin 5000) (q : Fin 128) :
    iblk0 V c 0 t (ix2 p q) = (V c main_arg1 : S50000x128.Idx → EReal) (ix2 (rowOf t p) q) := by
  show (V c main_arg1 : S50000x128.Idx → EReal) (((cfg0.win 0).blk t).view.emb (ix2 p q)) = _
  rw [emb0]
theorem blk1 (c : Dev nD) (t : Fin cfg0.N) (p : Fin 5000) (j : Fin 3) :
    iblk0 V c 1 t (ix2 p j) = (V c main_v0 : S50000x3.Idx → EReal) (ix2 (rowOf t p) j) := by
  show (V c main_v0 : S50000x3.Idx → EReal) (((cfg0.win 1).blk t).view.emb (ix2 p j)) = _
  rw [emb1]
theorem blk2 (c : Dev nD) (t : Fin cfg0.N) : iblk0 V c 2 t = (V c main_arg6 : S3x128.Idx → EReal) := by
  funext y
  show (V c main_arg6 : S3x128.Idx → EReal) (((cfg0.win 2).blk t).view.emb y) = _
  rw [emb2]
theorem blk3 (c : Dev nD) (t : Fin cfg0.N) : iblk0 V c 3 t = (V c main_v1 : S1x128.Idx → EReal) := by
  funext y
  show (V c main_v1 : S1x128.Idx → EReal) (((cfg0.win 3).blk t).view.emb y) = _
  rw [emb3]
theorem blk4 (c : Dev nD) (t : Fin cfg0.N) : iblk0 V c 4 t = (V c main_arg8 : S128x128.Idx → EReal) := by
  funext y
  show (V c main_arg8 : S128x128.Idx → EReal) (((cfg0.win 4).blk t).view.emb y) = _
  rw [emb4]
theorem blk5 (c : Dev nD) (t : Fin cfg0.N) : iblk0 V c 5 t = (V c main_v2 : S1x128.Idx → EReal) := by
  funext y
  show (V c main_v2 : S1x128.Idx → EReal) (((cfg0.win 5).blk t).view.emb y) = _
  rw [emb5]

/-! ## What a point writes back -/

/-- Point t writes back block t of the perceptron of the entry arrays. -/
theorem flushed_eq (c : Dev nD) (t : Fin cfg0.N) :
    (dat0 V c).flushed 6 t = ((cfg0.win 6).blk t).view.read (Elt Ideal)
      (nodeG (V c main_arg1) (V c main_v0) (V c main_arg6) (V c main_v1) (V c main_arg8) (V c main_v2)) := by
  show (cfg0.win 6).cut (grid0.coords t) ((dat0 V c).after 6 t) = _
  rw [after0_6]
  unfold out0_6
  rw [View.canon_unit_zero hz]
  simp only [View.ld_unit_zero (S := S5000x3) hz, View.ld_unit_zero (S := S3x128) hz, View.ld_unit_zero (S := S1x128) hz,
    View.ld_unit_zero (S := S128x128) hz, View.ld_unit_zero (S := S5000x128) hz]
  funext j
  obtain ⟨p, q, rfl⟩ : ∃ (p : Fin 5000) (q : Fin 128), j = ix2 p q := ⟨j 0, j 1, eq_ix2 j⟩
  show k0_pay1 (F := Ideal) (iblk0 V c 1 t) (iblk0 V c 2 t) (iblk0 V c 3 t) (iblk0 V c 4 t) (iblk0 V c 5 t) (iblk0 V c 0 t) (ix2 p q)
    = nodeG (V c main_arg1) (V c main_v0) (V c main_arg6) (V c main_v1) (V c main_arg8) (V c main_v2) (((cfg0.win 6).blk t).view.emb (ix2 p q))
  rw [emb6]
  refine (NodeBlock.pay_apply (iblk0 V c 1 t) (iblk0 V c 2 t) (iblk0 V c 3 t) (iblk0 V c 4 t) (iblk0 V c 5 t) (iblk0 V c 0 t) p q).trans ?_
  rw [blk2, blk3, blk4, blk5]
  unfold nodeG
  rw [out_ix2]
  unfold outAt pre3
  rw [blk0, blk1, blk1, blk1]

/-! ## The cover -/

theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v3).slice (win0_6.rect t)).set ↔ _
  rw [View.set_slice_whole, Rect.mem_set_unit]
  exact Iff.rfl

/-- Every entry of the result lies in the block of the point (row / 5000). -/
theorem cover (i : S50000x128.Idx) : ∃ t : Fin cfg0.N, (cfg0.win 6).flush t = true ∧ i ∈ ((cfg0.win 6).blk t).view.set := by
  have hi0 : (i 0).val < 50000 := idx2_lt0 i
  have hi1 : (i 1).val < 128 := idx2_lt1 i
  have hN : (i 0).val / 5000 < grid0.N := by rw [N_0]; omega
  refine ⟨⟨(i 0).val / 5000, hN⟩, flush0_6 _, ?_⟩
  rw [mem_blk]
  obtain ⟨-, -, -, -, -, -, -, -, -, -, -, -, e0, e1⟩ := idx_facts ⟨(i 0).val / 5000, hN⟩
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e1]; omega

/-- The result array after the region: the perceptron of the entry arrays, everywhere. -/
theorem final (c : Dev nD) :
    (dat0 V c).arrAt 6 cfg0.N = nodeG (V c main_arg1) (V c main_v0) (V c main_arg6) (V c main_v1) (V c main_arg8) (V c main_v2) :=
  (dat0 V c).arrAt_eq_of_cover 6 _ (fun t _ => flushed_eq V c t) cover

end Cert.KernelIdeal.NodeArray

end
-- ==== Proof.EdgeBlock.lean ====
/-
  The edge kernel's body, read at one entry of its output block.

  The body loads an [8000,1] block of edge lengths L, the [1,128] first-layer row W₁, the two bias rows, the
  [128,128] second-layer matrix W₂ and an [8000,128] block X of the residual.  The first layer has one input, so
  it is the length broadcast along the row times W₁ broadcast down the column; then bias, rectification, the
  product with W₂ accumulated from zero, the second bias row and the residual.  At row p, column q:

      X (p,q) + ((∑ k, max (L(p,0)·W₁(0,k) + b₁ k) 0 · W₂ (k,q)) + b₂ q).
-/
import proofs.«138814_j11003706212368_2_alg».proof.Proof.Gen.KernelIdeal.Skeleton
import proofs.«138814_j11003706212368_2_alg».proof.Proof.MlpSpec

noncomputable section

open scoped BigOperators

namespace Cert.KernelIdeal.EdgeBlock

open Cert.KernelIdeal Cert.KernelIdeal.Gen Idealize.ShloMosaic Idealize.ShloMosaic.ValueIdx Cert.Mlp

/-! ## The matrix product's dimension numbers: left columns against right rows -/

theorem dot_l0 (i : S8000x128.Idx) (q : dot_S8000x128_S128x128_S8000x128_1_0_0_1_n_n.contr.Idx) : (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem dot_l1 (i : S8000x128.Idx) (q : dot_S8000x128_S128x128_S8000x128_1_0_0_1_n_n.contr.Idx) : (dot_S8000x128_S128x128_S8000x128_1_0_0_1_n_n.lhsIdx i q 1).val = (q ⟨0, by decide⟩).val :=
  dot_S8000x128_S128x128_S8000x128_1_0_0_1_n_n.lhsIdx_val_of_single rfl i q
theorem dot_r0 (i : S8000x128.Idx) (q : dot_S8000x128_S128x128_S8000x128_1_0_0_1_n_n.contr.Idx) : (dot_S8000x128_S128x128_S8000x128_1_0_0_1_n_n.rhsIdx i q 0).val = (q ⟨0, by decide⟩).val :=
  dot_S8000x128_S128x128_S8000x128_1_0_0_1_n_n.rhsIdx_val_of_single rfl i q
theorem dot_r1 (i : S8000x128.Idx) (q : dot_S8000x128_S128x128_S8000x128_1_0_0_1_n_n.contr.Idx) : (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-! ## The rectified first layer, as the body computes it -/

/-- The length column times the weight row, plus the bias row, rectified. -/
def hidden (L : FVec Ideal S8000x1 .f32) (W : FVec Ideal S1x128 .f32) (B1 : FVec Ideal S1x128 .f32) : FVec Ideal S8000x128 .f32 :=
  maximumf
    (addf
      (mulf (broadcastTo S8000x128 (shapeCast S8000x1 L shapeCasts_S8000x1_S8000x1) broadcasts_S8000x1_S8000x128)
            (broadcastTo S8000x128 W broadcasts_S1x128_S8000x128))
      (broadcastTo S8000x128 (shapeCast S1x128 B1 shapeCasts_S1x128_S1x128) broadcasts_S1x128_S8000x128))
    (broadcast S8000x128 (Scalar.ofBits (F := Ideal) .f32 0x00000000#32))

/-- The body's stored value: the residual plus the product of the rectified first layer with W₂, plus the bias row. -/
theorem pay_eq (L : FVec Ideal S8000x1 .f32) (W : FVec Ideal S1x128 .f32) (B1 : FVec Ideal S1x128 .f32)
    (W2 : FVec Ideal S128x128 .f32) (B2 : FVec Ideal S1x128 .f32) (X0 : FVec Ideal S8000x128 .f32) :
    k1_pay1 (F := Ideal) L W B1 W2 B2 X0
      = addf X0 (addf (matmul dot_S8000x128_S128x128_S8000x128_1_0_0_1_n_n none (truncf .bf16 (hidden L W B1) bitsLt_bf16_f32) (truncf .bf16 W2 bitsLt_bf16_f32) (constant S8000x128 .f32 0x00000000#32))
          (broadcastTo S8000x128 (shapeCast S1x128 B2 shapeCasts_S1x128_S1x128) broadcasts_S1x128_S8000x128)) := rfl

/-- The rectified first layer at row p, hidden unit k. -/
theorem hidden_apply (L : FVec Ideal S8000x1 .f32) (W : FVec Ideal S1x128 .f32) (B1 : FVec Ideal S1x128 .f32) (p : Fin 8000) (k : Fin 128) :
    hidden L W B1 (ix2 p k) = max (pre1 L W p k + B1 (ix2 0 k)) 0 := by
  unfold hidden pre1
  rw [shapeCast_self, shapeCast_self]
  show max (((broadcastTo S8000x128 L _ (ix2 p k)) * (broadcastTo S8000x128 W _ (ix2 p k))) + (broadcastTo S8000x128 B1 _ (ix2 p k))) (Ideal.ofBits .f32 0x00000000#32) = _
  rw [Ideal.ofBits_zero_f32]
  rw [bcast_col, bcast_row, bcast_row]

/-- The body's stored value at row p, column q of the block. -/
theorem pay_apply (L : FVec Ideal S8000x1 .f32) (W : FVec Ideal S1x128 .f32) (B1 : FVec Ideal S1x128 .f32)
    (W2 : FVec Ideal S128x128 .f32) (B2 : FVec Ideal S1x128 .f32) (X0 : FVec Ideal S8000x128 .f32) (p : Fin 8000) (q : Fin 128) :
    k1_pay1 (F := Ideal) L W B1 W2 B2 X0 (ix2 p q)
      = outAt X0 (pre1 L W) (fun k => B1 (ix2 0 k)) W2 (fun k => B2 (ix2 0 k)) p q := by
  rw [pay_eq]
  unfold outAt
  show X0 (ix2 p q) + (matmul dot_S8000x128_S128x128_S8000x128_1_0_0_1_n_n none (truncf .bf16 (hidden L W B1) bitsLt_bf16_f32) (truncf .bf16 W2 bitsLt_bf16_f32) (constant S8000x128 .f32 0x00000000#32) (ix2 p q)
      + broadcastTo S8000x128 (shapeCast S1x128 B2 shapeCasts_S1x128_S1x128) broadcasts_S1x128_S8000x128 (ix2 p q)) = _
  rw [matmul_rows dot_S8000x128_S128x128_S8000x128_1_0_0_1_n_n rfl rfl dot_l0 dot_l1 dot_r0 dot_r1, bcast_row, shapeCast_self]
  refine congrArg (fun s => X0 (ix2 p q) + (s + B2 (ix2 0 q))) (Finset.sum_congr rfl fun k _ => ?_)
  show hidden L W B1 (ix2 p k) * W2 (ix2 k q) = _
  rw [hidden_apply]

end Cert.KernelIdeal.EdgeBlock

end
-- ==== Proof.EdgeArray.lean ====
/-
  The edge region: from what each grid point writes back to the whole result array.

  The region runs over two hundred grid points.  Point t reads rows 8000·t … 8000·t+7999 of the residual array and
  of the edge-length column, reads the first-layer row, the second-layer matrix and the two bias rows whole, and
  writes back rows 8000·t … 8000·t+7999 of the result.  Row p of the block at point t is row 8000·t + p of the
  array, so what point t writes back is block t of ONE function of the arrays the region is entered with — the
  two-layer perceptron with one input and its residual, row by row — and since every row of the result lies in
  the block of the point (row / 8000), the result array ends holding that function everywhere.
-/
import proofs.«138814_j11003706212368_2_alg».proof.Proof.Gen.KernelIdeal.Frame
import proofs.«138814_j11003706212368_2_alg».proof.Proof.EdgeBlock
import Idealize.ShloMosaic.Lib.Pipeline.Value

set_option maxRecDepth 16384

noncomputable section

open scoped BigOperators

namespace Cert.KernelIdeal.EdgeArray

open Cert.KernelIdeal Cert.KernelIdeal.Gen
open Idealize.ShloMosaic Idealize.ShloMosaic.TcCoe Idealize.ShloMosaic.ValueIdx Idealize.SL.Sem Cert.Mlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result as one function of the arrays the region is entered with. -/
def edgeG (X : S1600000x128.Idx → EReal) (P : S1600000x1.Idx → EReal) (W1 : S1x128.Idx → EReal) (B1 : S1x128.Idx → EReal)
    (W2 : S128x128.Idx → EReal) (B2 : S1x128.Idx → EReal) : S1600000x128.Idx → EReal :=
  out X (pre1 P W1) (fun k => B1 (ix2 0 k)) W2 (fun k => B2 (ix2 0 k))

/-- The block index maps over the grid: the row-blocked windows move with the point, the others stay at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row 8000·t + p of a 1600000-row array. -/
def rowOf (t : Fin cfg1.N) (p : Fin 8000) : Fin 1600000 :=
  ⟨t.val * 8000 + p.val, by have ht : t.val < grid1.N := t.isLt; rw [N_1] at ht; have := p.isLt; omega⟩

/-! ## Where a block's entries sit in their arrays -/

theorem emb0 (t : Fin cfg1.N) (p : Fin 8000) (q : Fin 128) : ((cfg1.win 0).blk t).view.emb (ix2 p q) = ix2 (rowOf t p) q := by
  obtain ⟨e0, e1, -⟩ := idx_facts t
  funext a; apply Fin.ext
  match a with
  | ⟨0, _⟩ => show win1_0.index t (0 : Fin 2) * 8000 + 1 * p.val = t.val * 8000 + p.val; omega
  | ⟨1, _⟩ => show win1_0.index t (1 : Fin 2) * 128 + 1 * q.val = q.val; omega

theorem emb1 (t : Fin cfg1.N) (p : Fin 8000) (j : Fin 1) : ((cfg1.win 1).blk t).view.emb (ix2 p j) = ix2 (rowOf t p) j := by
  obtain ⟨-, -, e0, e1, -⟩ := idx_facts t
  funext a; apply Fin.ext
  match a with
  | ⟨0, _⟩ => show win1_1.index t (0 : Fin 2) * 8000 + 1 * p.val = t.val * 8000 + p.val; omega
  | ⟨1, _⟩ => show win1_1.index t (1 : Fin 2) * 1 + 1 * j.val = j.val; omega

theorem emb6 (t : Fin cfg1.N) (p : Fin 8000) (q : Fin 128) : ((cfg1.win 6).blk t).view.emb (ix2 p q) = ix2 (rowOf t p) q := by
  obtain ⟨-, -, -, -, -, -, -, -, -, -, -, -, e0, e1⟩ := idx_facts t
  funext a; apply Fin.ext
  match a with
  | ⟨0, _⟩ => show win1_6.index t (0 : Fin 2) * 8000 + 1 * p.val = t.val * 8000 + p.val; omega
  | ⟨1, _⟩ => show win1_6.index t (1 : Fin 2) * 128 + 1 * q.val = q.val; omega

theorem emb2 (t : Fin cfg1.N) (y : S1x128.Idx) : ((cfg1.win 2).blk t).view.emb y = y := by
  obtain ⟨-, -, -, -, e0, e1, -⟩ := idx_facts t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem emb3 (t : Fin cfg1.N) (y : S1x128.Idx) : ((cfg1.win 3).blk t).view.emb y = y := by
  obtain ⟨-, -, -, -, -, -, e0, e1, -⟩ := idx_facts t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem emb4 (t : Fin cfg1.N) (y : S128x128.Idx) : ((cfg1.win 4).blk t).view.emb y = y := by
  obtain ⟨-, -, -, -, -, -, -, -, e0, e1, -⟩ := idx_facts t
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem emb5 (t : Fin cfg1.N) (y : S1x128.Idx) : ((cfg1.win 5).blk t).view.emb y = y := by
  obtain ⟨-, -, -, -, -, -, -, -, -, -, e0, e1, -⟩ := idx_facts t
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-! ## The blocks the body reads, as the arrays at the block's place -/

theorem blk0 (c : Dev nD) (t : Fin cfg1.N) (p : Fin 8000) (q : Fin 128) :
    iblk1 V c 0 t (ix2 p q) = (V c main_arg2 : S1600000x128.Idx → EReal) (ix2 (rowOf t p) q) := by
  show (V c main_arg2 : S1600000x128.Idx → EReal) (((cfg1.win 0).blk t).view.emb (ix2 p q)) = _
  rw [emb0]
theorem blk1 (c : Dev nD) (t : Fin cfg1.N) (p : Fin 8000) (j : Fin 1) :
    iblk1 V c 1 t (ix2 p j) = (V c main_v26 : S1600000x1.Idx → EReal) (ix2 (rowOf t p) j) := by
  show (V c main_v26 : S1600000x1.Idx → EReal) (((cfg1.win 1).blk t).view.emb (ix2 p j)) = _
  rw [emb1]
theorem blk2 (c : Dev nD) (t : Fin cfg1.N) : iblk1 V c 2 t = (V c main_arg10 : S1x128.Idx → EReal) := by
  funext y
  show (V c main_arg10 : S1x128.Idx → EReal) (((cfg1.win 2).blk t).view.emb y) = _
  rw [emb2]
theorem blk3 (c : Dev nD) (t : Fin cfg1.N) : iblk1 V c 3 t = (V c main_v27 : S1x128.Idx → EReal) := by
  funext y
  show (V c main_v27 : S1x128.Idx → EReal) (((cfg1.win 3).blk t).view.emb y) = _
  rw [emb3]
theorem blk4 (c : Dev nD) (t : Fin cfg1.N) : iblk1 V c 4 t = (V c main_arg12 : S128x128.Idx → EReal) := by
  funext y
  show (V c main_arg12 : S128x128.Idx → EReal) (((cfg1.win 4).blk t).view.emb y) = _
  rw [emb4]
theorem blk5 (c : Dev nD) (t : Fin cfg1.N) : iblk1 V c 5 t = (V c main_v28 : S1x128.Idx → EReal) := by
  funext y
  show (V c main_v28 : S1x128.Idx → EReal) (((cfg1.win 5).blk t).view.emb y) = _
  rw [emb5]

/-! ## What a point writes back -/

/-- Point t writes back block t of the perceptron of the entry arrays. -/
theorem flushed_eq (c : Dev nD) (t : Fin cfg1.N) :
    (dat1 V c).flushed 6 t = ((cfg1.win 6).blk t).view.read (Elt Ideal)
      (edgeG (V c main_arg2) (V c main_v26) (V c main_arg10) (V c main_v27) (V c main_arg12) (V c main_v28)) := by
  show (cfg1.win 6).cut (grid1.coords t) ((dat1 V c).after 6 t) = _
  rw [after1_6]
  unfold out1_6
  rw [View.canon_unit_zero hz]
  simp only [View.ld_unit_zero (S := S8000x1) hz, View.ld_unit_zero (S := S1x128) hz,
    View.ld_unit_zero (S := S128x128) hz, View.ld_unit_zero (S := S8000x128) hz]
  funext j
  obtain ⟨p, q, rfl⟩ : ∃ (p : Fin 8000) (q : Fin 128), j = ix2 p q := ⟨j 0, j 1, eq_ix2 j⟩
  show k1_pay1 (F := Ideal) (iblk1 V c 1 t) (iblk1 V c 2 t) (iblk1 V c 3 t) (iblk1 V c 4 t) (iblk1 V c 5 t) (iblk1 V c 0 t) (ix2 p q)
    = edgeG (V c main_arg2) (V c main_v26) (V c main_arg10) (V c main_v27) (V c main_arg12) (V c main_v28) (((cfg1.win 6).blk t).view.emb (ix2 p q))
  rw [emb6]
  refine (EdgeBlock.pay_apply (iblk1 V c 1 t) (iblk1 V c 2 t) (iblk1 V c 3 t) (iblk1 V c 4 t) (iblk1 V c 5 t) (iblk1 V c 0 t) p q).trans ?_
  rw [blk2, blk3, blk4, blk5]
  unfold edgeG
  rw [out_ix2]
  unfold outAt pre1
  rw [blk0, blk1]

/-! ## The cover -/

theorem mem_blk (t : Fin cfg1.N) (i : S1600000x128.Idx) :
    i ∈ ((cfg1.win 6).blk t).view.set ↔ ∀ a : Fin 2, win1_6.index t a * S8000x128.size a ≤ (i a).val ∧ (i a).val < win1_6.index t a * S8000x128.size a + S8000x128.size a := by
  show i ∈ ((View.whole main_v29).slice (win1_6.rect t)).set ↔ _
  rw [View.set_slice_whole, Rect.mem_set_unit]
  exact Iff.rfl

/-- Every entry of the result lies in the block of the point (row / 8000). -/
theorem cover (i : S1600000x128.Idx) : ∃ t : Fin cfg1.N, (cfg1.win 6).flush t = true ∧ i ∈ ((cfg1.win 6).blk t).view.set := by
  have hi0 : (i 0).val < 1600000 := idx2_lt0 i
  have hi1 : (i 1).val < 128 := idx2_lt1 i
  have hN : (i 0).val / 8000 < grid1.N := by rw [N_1]; omega
  refine ⟨⟨(i 0).val / 8000, hN⟩, flush1_6 _, ?_⟩
  rw [mem_blk]
  obtain ⟨-, -, -, -, -, -, -, -, -, -, -, -, e0, e1⟩ := idx_facts ⟨(i 0).val / 8000, hN⟩
  intro a
  match a with
  | ⟨0, _⟩ =>
    show win1_6.index ⟨(i 0).val / 8000, hN⟩ (0 : Fin 2) * 8000 ≤ (i 0).val ∧ (i 0).val < win1_6.index ⟨(i 0).val / 8000, hN⟩ (0 : Fin 2) * 8000 + 8000
    rw [e0]; show (i 0).val / 8000 * 8000 ≤ (i 0).val ∧ (i 0).val < (i 0).val / 8000 * 8000 + 8000; omega
  | ⟨1, _⟩ =>
    show win1_6.index ⟨(i 0).val / 8000, hN⟩ (1 : Fin 2) * 128 ≤ (i 1).val ∧ (i 1).val < win1_6.index ⟨(i 0).val / 8000, hN⟩ (1 : Fin 2) * 128 + 128
    rw [e1]; omega

/-- The result array after the region: the perceptron of the entry arrays, everywhere. -/
theorem final (c : Dev nD) :
    (dat1 V c).arrAt 6 cfg1.N = edgeG (V c main_arg2) (V c main_v26) (V c main_arg10) (V c main_v27) (V c main_arg12) (V c main_v28) :=
  (dat1 V c).arrAt_eq_of_cover 6 _ (fun t _ => flushed_eq V c t) cover

end Cert.KernelIdeal.EdgeArray

end
-- ==== Proof.KernelValue.lean ====
/-
  The idealized kernel program's two results as functions of the launch memory.

  Before the node region the host selects, row by row, the last prediction where the mask is set and the position
  elsewhere — the masked positions — and lays the two node bias vectors out as rows.  The node region's result is
  the node perceptron of the residual x, the masked positions, and the node weights and bias rows.  Between the
  regions the host takes the two endpoint rows of the edge index, wraps negative entries round by the number of
  nodes, gathers the masked positions at both endpoints, subtracts, squares, sums the three squares and takes the
  square root: the edge lengths, one column; and it lays the two edge bias vectors out as rows.  The edge region's
  result is the edge perceptron of the residual edge_attr, the lengths, and the edge weights and bias rows.  No
  later operation writes either result, and the node region's result is not touched by anything after it.
-/
import proofs.«138814_j11003706212368_2_alg».proof.Proof.Gen.KernelIdeal.Frame
import proofs.«138814_j11003706212368_2_alg».proof.Proof.NodeArray
import proofs.«138814_j11003706212368_2_alg».proof.Proof.EdgeArray
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

/-! ## The host's values -/

/-- The masked positions: the last prediction where the mask is set, the position elsewhere. -/
def posM (pos last : FVec Ideal S50000x3 .f32) (mask : IVec S50000x1 1) : FVec Ideal S50000x3 .f32 :=
  select (broadcastInDim S50000x3 ![0, 1] bcast_S50000x1_S50000x3_0_1 mask) last pos

/-- One endpoint row of the edge index as a column of row numbers, negative entries wrapped round by 50000. -/
def endIdx (ei : IVec S2x1600000 32) (o : Nat) (h : S2x1600000.Slices ![o, 0] S1x1600000) : IVec S1600000x1 32 :=
  broadcastInDim S1600000x1 ![0] bcast_S1600000_S1600000x1_0
    (select
      (cmpi .slt (shapeCast S1600000 (extractStridedSlice S1x1600000 ![o, 0] ei h) shapeCasts_S1x1600000_S1600000)
        (broadcastInDim S1600000 ![] bcast_S_S1600000 (constantI S_ 32 0#32)))
      (addi (shapeCast S1600000 (extractStridedSlice S1x1600000 ![o, 0] ei h) shapeCasts_S1x1600000_S1600000)
        (broadcastInDim S1600000 ![] bcast_S_S1600000 (constantI S_ 32 50000#32)))
      (shapeCast S1600000 (extractStridedSlice S1x1600000 ![o, 0] ei h) shapeCasts_S1x1600000_S1600000))

/-- The difference of the masked positions at an edge's two endpoints. -/
def endDiff (P : FVec Ideal S50000x3 .f32) (ei : IVec S2x1600000 32) : FVec Ideal S1600000x3 .f32 :=
  subf (F := Ideal) (Host.gather gather_S50000x3_S1600000x1_S1600000x3_1_0_n_n_0_1_13 P (endIdx ei 0 slices_S2x1600000_S1x1600000_0_0))
       (Host.gather gather_S50000x3_S1600000x1_S1600000x3_1_0_n_n_0_1_13 P (endIdx ei 1 slices_S2x1600000_S1x1600000_1_0))

/-- The edge lengths: the square root of the sum of the squared differences, as one column. -/
def edgeLen (P : FVec Ideal S50000x3 .f32) (ei : IVec S2x1600000 32) : FVec Ideal S1600000x1 .f32 :=
  Host.sqrt (F := Ideal) (broadcastInDim S1600000x1 ![0] bcast_S1600000_S1600000x1_0
    (Host.reduceAdd (F := Ideal) (mulf (F := Ideal) (endDiff P ei) (endDiff P ei)) (constant (F := Ideal) S_ .f32 0x00000000#32) reducesTo_S1600000x3_S1600000_d1 h_S_))

/-- A bias vector laid out as one row. -/
def biasRow (b : FVec Ideal S128 .f32) : FVec Ideal S1x128 .f32 := shapeCast S1x128 b shapeCasts_S128_S1x128

variable (m : (ℓ : Loc nD τ sig) → Buf (Elt Ideal) ℓ) (ρ : Dev nD → PrngReg)

/-! ## The node region's entry contents -/

theorem V2_arg1 (c : Dev nD) : V2 m ρ c main_arg1 = m ((c : Thread nD τ).loc main_arg1) := by
  show StableHlo.after hostOps0_1 (StableHlo.after hostOps0 (W0 m ρ c)) (Proc.devRef .tc main_arg1) = _
  after_results
theorem V2_arg6 (c : Dev nD) : V2 m ρ c main_arg6 = m ((c : Thread nD τ).loc main_arg6) := by
  show StableHlo.after hostOps0_1 (StableHlo.after hostOps0 (W0 m ρ c)) (Proc.devRef .tc main_arg6) = _
  after_results
theorem V2_arg8 (c : Dev nD) : V2 m ρ c main_arg8 = m ((c : Thread nD τ).loc main_arg8) := by
  show StableHlo.after hostOps0_1 (StableHlo.after hostOps0 (W0 m ρ c)) (Proc.devRef .tc main_arg8) = _
  after_results
theorem W2_arg3 (c : Dev nD) : W2 m ρ c (Proc.devRef .tc main_arg3) = m ((c : Thread nD τ).loc main_arg3) := by
  show StableHlo.after hostOps0_1 (StableHlo.after hostOps0 (W0 m ρ c)) (Proc.devRef .tc main_arg3) = _
  after_results
theorem W2_arg11 (c : Dev nD) : W2 m ρ c (Proc.devRef .tc main_arg11) = m ((c : Thread nD τ).loc main_arg11) := by
  show StableHlo.after hostOps0_1 (StableHlo.after hostOps0 (W0 m ρ c)) (Proc.devRef .tc main_arg11) = _
  after_results
theorem W2_arg13 (c : Dev nD) : W2 m ρ c (Proc.devRef .tc main_arg13) = m ((c : Thread nD τ).loc main_arg13) := by
  show StableHlo.after hostOps0_1 (StableHlo.after hostOps0 (W0 m ρ c)) (Proc.devRef .tc main_arg13) = _
  after_results
theorem W2_arg2 (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results
theorem W2_arg10 (c : Dev nD) : W2 m ρ c (Proc.devRef .tc main_arg10) = m ((c : Thread nD τ).loc main_arg10) := by
  show StableHlo.after hostOps0_1 (StableHlo.after hostOps0 (W0 m ρ c)) (Proc.devRef .tc main_arg10) = _
  after_results
theorem W2_arg12 (c : Dev nD) : W2 m ρ c (Proc.devRef .tc main_arg12) = m ((c : Thread nD τ).loc main_arg12) := by
  show StableHlo.after hostOps0_1 (StableHlo.after hostOps0 (W0 m ρ c)) (Proc.devRef .tc main_arg12) = _
  after_results
theorem W2_v0 (c : Dev nD) : W2 m ρ c (Proc.devRef .tc main_v0) = posM (m ((c : Thread nD τ).loc main_arg0)) (m ((c : Thread nD τ).loc main_arg4)) (m ((c : Thread nD τ).loc main_arg5)) := by
  show StableHlo.after hostOps0_1 (StableHlo.after hostOps0 (W0 m ρ c)) (Proc.devRef .tc main_v0) = _
  after_results; rfl
theorem V2_v1 (c : Dev nD) : V2 m ρ c main_v1 = biasRow (m ((c : Thread nD τ).loc main_arg7)) := by
  show StableHlo.after hostOps0_1 (StableHlo.after hostOps0 (W0 m ρ c)) (Proc.devRef .tc main_v1) = _
  after_results; rfl
theorem V2_v2 (c : Dev nD) : V2 m ρ c main_v2 = biasRow (m ((c : Thread nD τ).loc main_arg9)) := by
  show StableHlo.after hostOps0_1 (StableHlo.after hostOps0 (W0 m ρ c)) (Proc.devRef .tc main_v2) = _
  after_results; rfl

/-- The node result after the node region. -/
theorem W3_v3 (c : Dev nD) : W3 m ρ c (Proc.devRef .tc main_v3)
    = NodeArray.nodeG (m ((c : Thread nD τ).loc main_arg1)) (posM (m ((c : Thread nD τ).loc main_arg0)) (m ((c : Thread nD τ).loc main_arg4)) (m ((c : Thread nD τ).loc main_arg5))) (m ((c : Thread nD τ).loc main_arg6))
        (biasRow (m ((c : Thread nD τ).loc main_arg7))) (m ((c : Thread nD τ).loc main_arg8)) (biasRow (m ((c : Thread nD τ).loc main_arg9))) := by
  refine (W3_arr m ρ c 6).trans ((NodeArray.final (V2 m ρ) c).trans ?_)
  rw [V2_arg1, V2_arg6, V2_arg8, V2_v1, V2_v2]
  exact congrArg (fun P => NodeArray.nodeG _ P _ _ _ _) (W2_v0 m ρ c)

/-! ## The edge region's entry contents -/

theorem V4_arg2 (c : Dev nD) : V4 m ρ c main_arg2 = m ((c : Thread nD τ).loc main_arg2) := by
  show StableHlo.after hostOps1 (W3 m ρ c) (Proc.devRef .tc main_arg2) = _
  after_results_simp
  exact (W3_of_ne m ρ c main_arg2 (by decide)).trans (W2_arg2 m ρ c)
theorem V4_arg10 (c : Dev nD) : V4 m ρ c main_arg10 = m ((c : Thread nD τ).loc main_arg10) := by
  show StableHlo.after hostOps1 (W3 m ρ c) (Proc.devRef .tc main_arg10) = _
  after_results_simp
  exact (W3_of_ne m ρ c main_arg10 (by decide)).trans (W2_arg10 m ρ c)
theorem V4_arg12 (c : Dev nD) : V4 m ρ c main_arg12 = m ((c : Thread nD τ).loc main_arg12) := by
  show StableHlo.after hostOps1 (W3 m ρ c) (Proc.devRef .tc main_arg12) = _
  after_results_simp
  exact (W3_of_ne m ρ c main_arg12 (by decide)).trans (W2_arg12 m ρ c)

theorem W3_v0 (c : Dev nD) : W3 m ρ c (Proc.devRef .tc main_v0) = posM (m ((c : Thread nD τ).loc main_arg0)) (m ((c : Thread nD τ).loc main_arg4)) (m ((c : Thread nD τ).loc main_arg5)) :=
  (W3_arr m ρ c 1).trans (((dat0 (V2 m ρ) c).arrAt_in 1 rfl _).trans ((A_eq0 (V2 m ρ) c 1).trans (W2_v0 m ρ c)))
theorem W3_arg3 (c : Dev nD) : W3 m ρ c (Proc.devRef .tc main_arg3) = m ((c : Thread nD τ).loc main_arg3) :=
  (W3_of_ne m ρ c main_arg3 (by decide)).trans (W2_arg3 m ρ c)
theorem W3_arg11 (c : Dev nD) : W3 m ρ c (Proc.devRef .tc main_arg11) = m ((c : Thread nD τ).loc main_arg11) :=
  (W3_of_ne m ρ c main_arg11 (by decide)).trans (W2_arg11 m ρ c)
theorem W3_arg13 (c : Dev nD) : W3 m ρ c (Proc.devRef .tc main_arg13) = m ((c : Thread nD τ).loc main_arg13) :=
  (W3_of_ne m ρ c main_arg13 (by decide)).trans (W2_arg13 m ρ c)

theorem V4_v27 (c : Dev nD) : V4 m ρ c main_v27 = biasRow (m ((c : Thread nD τ).loc main_arg11)) := by
  show StableHlo.after hostOps1 (W3 m ρ c) (Proc.devRef .tc main_v27) = _
  after_results_simp
  rw [W3_arg11]; rfl
theorem V4_v28 (c : Dev nD) : V4 m ρ c main_v28 = biasRow (m ((c : Thread nD τ).loc main_arg13)) := by
  show StableHlo.after hostOps1 (W3 m ρ c) (Proc.devRef .tc main_v28) = _
  after_results_simp
  rw [W3_arg13]; rfl
theorem V4_v26 (c : Dev nD) : V4 m ρ c main_v26
    = edgeLen (posM (m ((c : Thread nD τ).loc main_arg0)) (m ((c : Thread nD τ).loc main_arg4)) (m ((c : Thread nD τ).loc main_arg5))) (m ((c : Thread nD τ).loc main_arg3)) := by
  show StableHlo.after hostOps1 (W3 m ρ c) (Proc.devRef .tc main_v26) = _
  after_results_simp
  rw [W3_v0, W3_arg3]; rfl

/-! ## The two results after the last segment -/

/-- The node result is not touched after its region. -/
theorem W5_v3 (c : Dev nD) : W5 m ρ c (Proc.devRef .tc main_v3)
    = NodeArray.nodeG (m ((c : Thread nD τ).loc main_arg1)) (posM (m ((c : Thread nD τ).loc main_arg0)) (m ((c : Thread nD τ).loc main_arg4)) (m ((c : Thread nD τ).loc main_arg5))) (m ((c : Thread nD τ).loc main_arg6))
        (biasRow (m ((c : Thread nD τ).loc main_arg7))) (m ((c : Thread nD τ).loc main_arg8)) (biasRow (m ((c : Thread nD τ).loc main_arg9))) := by
  refine (W5_of_ne m ρ c main_v3 (by decide)).trans (Eq.trans ?_ (W3_v3 m ρ c))
  show StableHlo.after hostOps1 (W3 m ρ c) (Proc.devRef .tc main_v3) = _
  after_results_simp

/-- The edge result after the edge region. -/
theorem W5_v29 (c : Dev nD) : W5 m ρ c (Proc.devRef .tc main_v29)
    = EdgeArray.edgeG (m ((c : Thread nD τ).loc main_arg2)) (edgeLen (posM (m ((c : Thread nD τ).loc main_arg0)) (m ((c : Thread nD τ).loc main_arg4)) (m ((c : Thread nD τ).loc main_arg5))) (m ((c : Thread nD τ).loc main_arg3))) (m ((c : Thread nD τ).loc main_arg10))
        (biasRow (m ((c : Thread nD τ).loc main_arg11))) (m ((c : Thread nD τ).loc main_arg12)) (biasRow (m ((c : Thread nD τ).loc main_arg13))) := by
  refine (W5_arr m ρ c 6).trans ((EdgeArray.final (V4 m ρ) c).trans ?_)
  rw [V4_arg2, V4_arg10, V4_arg12, V4_v26, V4_v27, V4_v28]

end Cert.KernelIdeal.KValue

end
-- ==== Proof.HostReads.lean ====
/-
  Host operations of the two-layer perceptron read at an entry.

  A host matrix product that contracts the left operand's columns with the right operand's rows reads, at entry
  (p, q), as the sum over the shared coordinate of the products of the entries; a bias vector laid out as a row
  and then broadcast down the columns reads the vector at the column coordinate; a maximum against the broadcast
  zero scalar is the maximum with 0.
-/
import Idealize.ShloMosaic.PureOps.Ideal
import Idealize.ShloMosaic.PureOps.Ideal.Laws
import Idealize.ShloMosaic.Lib.ValueIdx
import Idealize.ShloMosaic.Lib.Pipeline.Value
import proofs.«138814_j11003706212368_2_alg».proof.Proof.MlpSpec

noncomputable section

open scoped BigOperators

namespace Cert.Mlp

open Idealize.ShloMosaic Idealize.ShloMosaic.ValueIdx

/-- For dimension numbers that contract the left operand's columns with the right operand's rows (the four
    coordinate facts), entry (p, q) of the host product of an [n,K] matrix with a [K,128] matrix is the sum over
    the K shared coordinates of the products of the entries. -/
theorem dot_rows {n K : Nat} {φ₁ φ₂ : FTy} (d : DotDims (Mat n K) (Mat K 128) (Mat n 128))
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (A : FVec Ideal (Mat n K) φ₁) (B : FVec Ideal (Mat K 128) φ₂) (p : Fin n) (q : Fin 128) :
    Host.dotGeneral d none A B (ix2 p q) = ∑ k : Fin K, A (ix2 p k) * B (ix2 k q) := by
  show FloatOps.dotGeneral d none .single A B (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- A vector of 128 entries laid out as a row and broadcast down n rows reads the vector at the column coordinate. -/
theorem bias_bcast {n : Nat} {α : Type} (b : (⟨1, ![128]⟩ : Shape).Idx → α)
    (h1 : (⟨1, ![128]⟩ : Shape).BroadcastsInDim (Mat 1 128) ![1]) (h2 : (Mat 1 128).BroadcastsInDim (Mat n 128) ![0, 1])
    (p : Fin n) (q : Fin 128) :
    broadcastInDim (Mat n 128) ![0, 1] h2 (broadcastInDim (Mat 1 128) ![1] h1 b) (ix2 p q) = b (ix1 q) := by
  refine (broadcastInDim_apply _ h2 _ (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans ?_
  exact broadcastInDim_apply _ h1 b (ix2 0 q) (ix1 q) (fun a => match a with
    | ⟨0, _⟩ => by show q.val = if (128 : Nat) = 1 then 0 else q.val; rw [if_neg (by decide)])

/-- The maximum with the broadcast zero scalar is the maximum with 0. -/
theorem relu_apply {n : Nat} (A : FVec Ideal (Mat n 128) .f32) (h0 : (⟨0, ![]⟩ : Shape).BroadcastsInDim (Mat n 128) ![])
    (i : (Mat n 128).Idx) :
    maximumf A (broadcastInDim (Mat n 128) ![] h0 (constant (F := Ideal) ⟨0, ![]⟩ .f32 0x00000000#32)) i = max (A i) 0 := by
  show max (A i) (Ideal.ofBits .f32 0x00000000#32) = _
  rw [Ideal.ofBits_zero_f32]

end Cert.Mlp

end
-- ==== Proof.RefValue.lean ====
/-
  The idealized reference's two results as the same perceptrons.

  The reference computes the masked positions, then the node result as x plus the second dense layer of the
  rectified first dense layer of the masked positions; it gathers the masked positions at the two endpoints of
  every edge, takes the norm of the difference, and computes the edge result as edge_attr plus the second dense
  layer of the rectified first dense layer of the lengths.  A dense layer is a host matrix product plus the bias
  vector broadcast over the rows.  Read at an entry, the first layer's product is a sum over three inputs on the
  node path and over one input on the edge path; those sums are the three-term and one-term expressions of the
  specification.
-/
import proofs.«138814_j11003706212368_2_alg».proof.Proof.Gen.ReferenceIdeal.Read
import proofs.«138814_j11003706212368_2_alg».proof.Proof.HostReads

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem Cert.Mlp

/-! ## The host's values -/

/-- The masked positions: the last prediction where the mask is set, the position elsewhere. -/
def posM (pos last : FVec Ideal S50000x3 .f32) (mask : IVec S50000x1 1) : FVec Ideal S50000x3 .f32 :=
  select (broadcastInDim S50000x3 ![0, 1] bcast_S50000x1_S50000x3_0_1 mask) last pos

/-- One endpoint row of the edge index as a column of row numbers, negative entries wrapped round by 50000. -/
def endIdx (ei : IVec S2x1600000 32) (o : Nat) (h : S2x1600000.Slices ![o, 0] S1x1600000) : IVec S1600000x1 32 :=
  broadcastInDim S1600000x1 ![0] bcast_S1600000_S1600000x1_0
    (select
      (cmpi .slt (shapeCast S1600000 (extractStridedSlice S1x1600000 ![o, 0] ei h) shapeCasts_S1x1600000_S1600000)
        (broadcastInDim S1600000 ![] bcast_S_S1600000 (constantI S_ 32 0#32)))
      (addi (shapeCast S1600000 (extractStridedSlice S1x1600000 ![o, 0] ei h) shapeCasts_S1x1600000_S1600000)
        (broadcastInDim S1600000 ![] bcast_S_S1600000 (constantI S_ 32 50000#32)))
      (shapeCast S1600000 (extractStridedSlice S1x1600000 ![o, 0] ei h) shapeCasts_S1x1600000_S1600000))

/-- The difference of the masked positions at an edge's two endpoints. -/
def endDiff (P : FVec Ideal S50000x3 .f32) (ei : IVec S2x1600000 32) : FVec Ideal S1600000x3 .f32 :=
  subf (F := Ideal) (Host.gather gather_S50000x3_S1600000x1_S1600000x3_1_0_n_n_0_1_13 P (endIdx ei 0 slices_S2x1600000_S1x1600000_0_0))
       (Host.gather gather_S50000x3_S1600000x1_S1600000x3_1_0_n_n_0_1_13 P (endIdx ei 1 slices_S2x1600000_S1x1600000_1_0))

/-- The edge lengths: the square root of the sum of the squared differences, as one column. -/
def edgeLen (P : FVec Ideal S50000x3 .f32) (ei : IVec S2x1600000 32) : FVec Ideal S1600000x1 .f32 :=
  Host.sqrt (F := Ideal) (broadcastInDim S1600000x1 ![0] bcast_S1600000_S1600000x1_0
    (Host.reduceAdd (F := Ideal) (mulf (F := Ideal) (endDiff P ei) (endDiff P ei)) (constant (F := Ideal) S_ .f32 0x00000000#32) reducesTo_S1600000x3_S1600000_d1 h_S_))

/-! ## The two dense stacks, entry by entry -/

/-- The node stack is the node perceptron. -/
theorem node_eq (x : FVec Ideal S50000x128 .f32) (P : FVec Ideal S50000x3 .f32) (W1 : FVec Ideal S3x128 .f32) (b1 : FVec Ideal S128 .f32)
    (W2 : FVec Ideal S128x128 .f32) (b2 : FVec Ideal S128 .f32) :
    addf x (addf (Host.dotGeneral dot_S50000x128_S128x128_S50000x128_1_0_0_1_n_n none (maximumf (addf (Host.dotGeneral dot_S50000x3_S3x128_S50000x128_1_0_0_1_n_n none P W1) (broadcastInDim S50000x128 ![0, 1] bcast_S1x128_S50000x128_0_1 (broadcastInDim S1x128 ![1] bcast_S128_S1x128_1 b1))) (broadcastInDim S50000x128 ![] bcast_S_S50000x128 (constant (F := Ideal) S_ .f32 0x00000000#32))) W2) (broadcastInDim S50000x128 ![0, 1] bcast_S1x128_S50000x128_0_1 (broadcastInDim S1x128 ![1] bcast_S128_S1x128_1 b2)))
      = out x (pre3 P W1) (fun k => b1 (ix1 k)) W2 (fun k => b2 (ix1 k)) := by
  funext i
  obtain ⟨p, q, rfl⟩ : ∃ (p : Fin 50000) (q : Fin 128), i = ix2 p q := ⟨i 0, i 1, eq_ix2 i⟩
  rw [out_ix2]
  unfold outAt
  show x (ix2 p q) + (Host.dotGeneral dot_S50000x128_S128x128_S50000x128_1_0_0_1_n_n none (maximumf (addf (Host.dotGeneral dot_S50000x3_S3x128_S50000x128_1_0_0_1_n_n none P W1) (broadcastInDim S50000x128 ![0, 1] bcast_S1x128_S50000x128_0_1 (broadcastInDim S1x128 ![1] bcast_S128_S1x128_1 b1))) (broadcastInDim S50000x128 ![] bcast_S_S50000x128 (constant (F := Ideal) S_ .f32 0x00000000#32))) W2 (ix2 p q)
      + (broadcastInDim S50000x128 ![0, 1] bcast_S1x128_S50000x128_0_1 (broadcastInDim S1x128 ![1] bcast_S128_S1x128_1 b2)) (ix2 p q)) = _
  rw [dot_rows dot_S50000x128_S128x128_S50000x128_1_0_0_1_n_n rfl rfl Read.lhs_main_v6_0 Read.lhs_main_v6_1 Read.rhs_main_v6_0 Read.rhs_main_v6_1, bias_bcast]
  refine congrArg (fun s => x (ix2 p q) + (s + b2 (ix1 q))) (Finset.sum_congr rfl fun k _ => ?_)
  rw [relu_apply]
  show max (Host.dotGeneral dot_S50000x3_S3x128_S50000x128_1_0_0_1_n_n none P W1 (ix2 p k) + (broadcastInDim S50000x128 ![0, 1] bcast_S1x128_S50000x128_0_1 (broadcastInDim S1x128 ![1] bcast_S128_S1x128_1 b1)) (ix2 p k)) 0 * W2 (ix2 k q) = _
  rw [dot_rows dot_S50000x3_S3x128_S50000x128_1_0_0_1_n_n rfl rfl Read.lhs_main_v1_0 Read.lhs_main_v1_1 Read.rhs_main_v1_0 Read.rhs_main_v1_1, bias_bcast, sum3_eq_pre3]

/-- The edge stack is the edge perceptron. -/
theorem edge_eq (x : FVec Ideal S1600000x128 .f32) (Lc : FVec Ideal S1600000x1 .f32) (W1 : FVec Ideal S1x128 .f32) (b1 : FVec Ideal S128 .f32)
    (W2 : FVec Ideal S128x128 .f32) (b2 : FVec Ideal S128 .f32) :
    addf x (addf (Host.dotGeneral dot_S1600000x128_S128x128_S1600000x128_1_0_0_1_n_n none (maximumf (addf (Host.dotGeneral dot_S1600000x1_S1x128_S1600000x128_1_0_0_1_n_n none Lc W1) (broadcastInDim S1600000x128 ![0, 1] bcast_S1x128_S1600000x128_0_1 (broadcastInDim S1x128 ![1] bcast_S128_S1x128_1 b1))) (broadcastInDim S1600000x128 ![] bcast_S_S1600000x128 (constant (F := Ideal) S_ .f32 0x00000000#32))) W2) (broadcastInDim S1600000x128 ![0, 1] bcast_S1x128_S1600000x128_0_1 (broadcastInDim S1x128 ![1] bcast_S128_S1x128_1 b2)))
      = out x (pre1 Lc W1) (fun k => b1 (ix1 k)) W2 (fun k => b2 (ix1 k)) := by
  funext i
  obtain ⟨p, q, rfl⟩ : ∃ (p : Fin 1600000) (q : Fin 128), i = ix2 p q := ⟨i 0, i 1, eq_ix2 i⟩
  rw [out_ix2]
  unfold outAt
  show x (ix2 p q) + (Host.dotGeneral dot_S1600000x128_S128x128_S1600000x128_1_0_0_1_n_n none (maximumf (addf (Host.dotGeneral dot_S1600000x1_S1x128_S1600000x128_1_0_0_1_n_n none Lc W1) (broadcastInDim S1600000x128 ![0, 1] bcast_S1x128_S1600000x128_0_1 (broadcastInDim S1x128 ![1] bcast_S128_S1x128_1 b1))) (broadcastInDim S1600000x128 ![] bcast_S_S1600000x128 (constant (F := Ideal) S_ .f32 0x00000000#32))) W2 (ix2 p q)
      + (broadcastInDim S1600000x128 ![0, 1] bcast_S1x128_S1600000x128_0_1 (broadcastInDim S1x128 ![1] bcast_S128_S1x128_1 b2)) (ix2 p q)) = _
  rw [dot_rows dot_S1600000x128_S128x128_S1600000x128_1_0_0_1_n_n rfl rfl Read.lhs_main_v36_0 Read.lhs_main_v36_1 Read.rhs_main_v36_0 Read.rhs_main_v36_1, bias_bcast]
  refine congrArg (fun s => x (ix2 p q) + (s + b2 (ix1 q))) (Finset.sum_congr rfl fun k _ => ?_)
  rw [relu_apply]
  show max (Host.dotGeneral dot_S1600000x1_S1x128_S1600000x128_1_0_0_1_n_n none Lc W1 (ix2 p k) + (broadcastInDim S1600000x128 ![0, 1] bcast_S1x128_S1600000x128_0_1 (broadcastInDim S1x128 ![1] bcast_S128_S1x128_1 b1)) (ix2 p k)) 0 * W2 (ix2 k q) = _
  rw [dot_rows dot_S1600000x1_S1x128_S1600000x128_1_0_0_1_n_n rfl rfl Read.lhs_main_v31_0 Read.lhs_main_v31_1 Read.rhs_main_v31_0 Read.rhs_main_v31_1, bias_bcast, sum1_eq_pre1]

/-! ## The run's two result terms -/

variable (m : (ℓ : Loc nD τ sig) → Buf (Elt Ideal) ℓ)

/-- The run's edge result term is the edge stack of edge_attr, the lengths and the edge weights. -/
theorem res_edge (c : Dev nD) : Value.res_out1 (F := Ideal) m c
    = out (m ((c.tc : Thread nD τ).loc main_arg2)) (pre1 (edgeLen (posM (m ((c.tc : Thread nD τ).loc main_arg0)) (m ((c.tc : Thread nD τ).loc main_arg4)) (m ((c.tc : Thread nD τ).loc main_arg5))) (m ((c.tc : Thread nD τ).loc main_arg3))) (m ((c.tc : Thread nD τ).loc main_arg10)))
        (fun k => (m ((c.tc : Thread nD τ).loc main_arg11)) (ix1 k)) (m ((c.tc : Thread nD τ).loc main_arg12)) (fun k => (m ((c.tc : Thread nD τ).loc main_arg13)) (ix1 k)) :=
  Eq.trans (by show Value.res_main_v40 (F := Ideal) m c = _; unfold Value.res_main_v40; rfl)
    (edge_eq (m ((c.tc : Thread nD τ).loc main_arg2)) (edgeLen (posM (m ((c.tc : Thread nD τ).loc main_arg0)) (m ((c.tc : Thread nD τ).loc main_arg4)) (m ((c.tc : Thread nD τ).loc main_arg5))) (m ((c.tc : Thread nD τ).loc main_arg3))) (m ((c.tc : Thread nD τ).loc main_arg10))
      (m ((c.tc : Thread nD τ).loc main_arg11)) (m ((c.tc : Thread nD τ).loc main_arg12)) (m ((c.tc : Thread nD τ).loc main_arg13)))

end Cert.ReferenceIdeal.RefValue

end
-- ==== Proof.Bridge.lean ====
/-
  The two programs compute the same two arrays.

  On the kernel side each result is a perceptron whose bias rows are the bias vectors laid out as [1,128] rows and
  read at (0, k); on the reference side the bias vectors are read at k.  A vector laid out as a row reads, at
  (0, k), the vector at k, so the two perceptrons are one function.  The masked positions and the edge lengths are
  the same host operations in both programs (the two prints name the same dimension records separately).
-/
import proofs.«138814_j11003706212368_2_alg».proof.Proof.KernelRun
import proofs.«138814_j11003706212368_2_alg».proof.Proof.KernelValue
import proofs.«138814_j11003706212368_2_alg».proof.Proof.RefValue
import Idealize.ShloMosaic.Lib.ValueLayout

set_option maxRecDepth 16384

noncomputable section

namespace Cert.Bridge

open Idealize.ShloMosaic Idealize.ShloMosaic.TcCoe Idealize.ShloMosaic.ValueIdx Idealize.SL.Sem Cert.Mlp
open Cert.KernelIdeal

/-- A bias vector laid out as a row reads the vector at the column coordinate. -/
theorem biasRow_apply (b : FVec Ideal S128 .f32) (k : Fin 128) : KValue.biasRow b (ix2 0 k) = b (ix1 k) :=
  shapeCast_a_1a_apply b _ 0 k

/-- The masked positions are one function in the two programs. -/
theorem posM_eq (pos last : FVec Ideal S50000x3 .f32) (mask : IVec S50000x1 1) :
    KValue.posM pos last mask = Cert.ReferenceIdeal.RefValue.posM pos last mask := rfl

/-- The edge lengths are one function in the two programs. -/
theorem edgeLen_eq (P : FVec Ideal S50000x3 .f32) (ei : IVec S2x1600000 32) :
    KValue.edgeLen P ei = Cert.ReferenceIdeal.RefValue.edgeLen P ei := rfl

/-- The node result with bias rows is the node perceptron with bias vectors. -/
theorem node_bridge (x : S50000x128.Idx → EReal) (P : S50000x3.Idx → EReal) (W1 : S3x128.Idx → EReal) (b1 : FVec Ideal S128 .f32)
    (W2 : S128x128.Idx → EReal) (b2 : FVec Ideal S128 .f32) :
    NodeArray.nodeG x P W1 (KValue.biasRow b1) W2 (KValue.biasRow b2) = out x (pre3 P W1) (fun k => b1 (ix1 k)) W2 (fun k => b2 (ix1 k)) := by
  unfold NodeArray.nodeG
  simp only [biasRow_apply]

/-- The edge result with bias rows is the edge perceptron with bias vectors. -/
theorem edge_bridge (x : S1600000x128.Idx → EReal) (Lc : S1600000x1.Idx → EReal) (W1 : S1x128.Idx → EReal) (b1 : FVec Ideal S128 .f32)
    (W2 : S128x128.Idx → EReal) (b2 : FVec Ideal S128 .f32) :
    EdgeArray.edgeG x Lc W1 (KValue.biasRow b1) W2 (KValue.biasRow b2) = out x (pre1 Lc W1) (fun k => b1 (ix1 k)) W2 (fun k => b2 (ix1 k)) := by
  unfold EdgeArray.edgeG
  simp only [biasRow_apply]

variable (m : (ℓ : Loc nD τ sig) → Buf (Elt Ideal) ℓ) (ρ : Dev nD → PrngReg)

/-- The idealized kernel program's run: the node result is the node perceptron of x, the masked positions and the
    node weights; the edge result is the edge perceptron of edge_attr, the edge lengths and the edge weights; the
    arguments are as launched. -/
theorem kernel_run : θ_run defs (onTc (τ := τ) (main (F := Ideal))) ⟨m, fun _ => 0, ρ⟩ (fun r => ∀ c : Dev nD,
      r.2.mem ((c.tc : Thread nD τ).loc main_v3)
        = out (m ((c.tc : Thread nD τ).loc main_arg1)) (pre3 (KValue.posM (m ((c.tc : Thread nD τ).loc main_arg0)) (m ((c.tc : Thread nD τ).loc main_arg4)) (m ((c.tc : Thread nD τ).loc main_arg5))) (m ((c.tc : Thread nD τ).loc main_arg6)))
            (fun k => (m ((c.tc : Thread nD τ).loc main_arg7)) (ix1 k)) (m ((c.tc : Thread nD τ).loc main_arg8)) (fun k => (m ((c.tc : Thread nD τ).loc main_arg9)) (ix1 k))
      ∧ r.2.mem ((c.tc : Thread nD τ).loc main_v29)
        = out (m ((c.tc : Thread nD τ).loc main_arg2)) (pre1 (KValue.edgeLen (KValue.posM (m ((c.tc : Thread nD τ).loc main_arg0)) (m ((c.tc : Thread nD τ).loc main_arg4)) (m ((c.tc : Thread nD τ).loc main_arg5))) (m ((c.tc : Thread nD τ).loc main_arg3))) (m ((c.tc : Thread nD τ).loc main_arg10)))
            (fun k => (m ((c.tc : Thread nD τ).loc main_arg11)) (ix1 k)) (m ((c.tc : Thread nD τ).loc main_arg12)) (fun k => (m ((c.tc : Thread nD τ).loc main_arg13)) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c).1.trans ((KValue.W5_v3 m ρ c).trans (node_bridge _ _ _ _ _ _)),
       (h c).2.1.trans ((KValue.W5_v29 m ρ c).trans (edge_bridge _ _ _ _ _ _)),
       (h c).2.2⟩)
    (RunValue.run_results (F := Ideal) m ρ)

end Cert.Bridge

end
-- ==== Proof.lean ====
/-
  Two-layer perceptrons on the nodes and on the edges of a graph, with residuals: the tiled kernel program
  against its plain reference, over the extended reals.

  The node output is x + (max (P·W₁ + b₁) 0)·W₂ + b₂ with P the masked positions (the last prediction where the
  mask is set, the position elsewhere); the edge output is edge_attr + (max (ℓ·W₁' + b₁') 0)·W₂' + b₂' with ℓ the
  length of the difference of the masked positions at an edge's two endpoints.  The kernel program computes the
  node output in ten row blocks and the edge output in two hundred, forms the first layer as broadcast products
  added left to right instead of a matrix product, and lays the bias vectors out as rows; the reference uses
  matrix products and broadcast bias vectors.  Entry by entry the two are the same expression: a contraction over
  three inputs, or over one, is the three-term, or one-term, sum, because addition of extended reals is
  associative.  Nothing in the comparison needs the inputs finite, so the precondition is never opened.

  The three frames: the kernel program's two, at the word level and idealized, are the runs of its five segments;
  the reference's is its run with the results dropped.  The idealization rewrote nothing, so there is nothing to
  preserve.
-/
import proofs.«138814_j11003706212368_2_alg».proof.Defs
import proofs.«138814_j11003706212368_2_alg».proof.Proof.Gen.Kernel
import proofs.«138814_j11003706212368_2_alg».proof.Proof.Gen.Kernel.Skeleton
import proofs.«138814_j11003706212368_2_alg».proof.Proof.Gen.Kernel.Launch
import proofs.«138814_j11003706212368_2_alg».proof.Proof.Gen.Kernel.Points
import proofs.«138814_j11003706212368_2_alg».proof.Proof.Gen.Kernel.Frame
import proofs.«138814_j11003706212368_2_alg».proof.Proof.Gen.KernelIdeal
import proofs.«138814_j11003706212368_2_alg».proof.Proof.Gen.KernelIdeal.Skeleton
import proofs.«138814_j11003706212368_2_alg».proof.Proof.Gen.KernelIdeal.Launch
import proofs.«138814_j11003706212368_2_alg».proof.Proof.Gen.KernelIdeal.Points
import proofs.«138814_j11003706212368_2_alg».proof.Proof.Gen.KernelIdeal.Frame
import proofs.«138814_j11003706212368_2_alg».proof.Proof.Gen.ReferenceIdeal
import proofs.«138814_j11003706212368_2_alg».proof.Proof.Gen.ReferenceIdeal.Run
import proofs.«138814_j11003706212368_2_alg».proof.Proof.Gen.ReferenceIdeal.Read
import proofs.«138814_j11003706212368_2_alg».proof.Proof.Gen.Pre_finite_inputs
import proofs.«138814_j11003706212368_2_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the node perceptron and the edge perceptron
    of the arguments in their two result arrays. -/
theorem algebraic : Cert.algebraic_KernelIdeal_ReferenceIdeal := by
  intro m ρ m' ρ' _ hagree
  refine ⟨_, _, Cert.Bridge.kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    rw [a0, a1, a4, a5, a6, a7, a8, a9]
    exact (Cert.ReferenceIdeal.RefValue.node_eq _ _ _ _ _ _).trans
      (congrArg (fun P => Cert.Mlp.out _ (Cert.Mlp.pre3 P _) _ _ _) (Cert.Bridge.posM_eq _ _ _).symm)
  · obtain ⟨a0, a1, a2, a3, a4, a5, a6, a7, a8, a9, a10, a11, a12, a13⟩ := hagree c
    refine (Cert.ReferenceIdeal.RefValue.res_edge m' c).trans ?_
    rw [a0, a2, a3, a4, a5, a10, a11, a12, a13]
    exact congrArg (fun Lc => Cert.Mlp.out _ (Cert.Mlp.pre1 Lc _) _ _ _)
      (((Cert.Bridge.edgeLen_eq _ _).trans (congrArg (fun P => Cert.ReferenceIdeal.RefValue.edgeLen P _) (Cert.Bridge.posM_eq _ _ _))).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
